-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S700x128x1024 : S_.BroadcastsInDim S700x128x1024 (![] : Fin 0 → Fin S700x128x1024.rank)
  reducesTo_S700x128x1024_S_d0_1_2 : S700x128x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S700x128x1024 .f32) (main_arg1 : FVec F S1024x1024 .f32) (main_arg2 : FVec F S1024 .f32) (main_arg3 : FVec F S1024x1 .f32) (main_arg4 : FVec F S1 .f32) : IVec S_ 1 :=
  let main_v0 : FVec F S700x128x1024 .f32 := Host.absf main_arg0
  let main_cst : FVec F S_ .f32 := constant S_ .f32 0x7F800000#32
  let main_v1 : FVec F S700x128x1024 .f32 := broadcastInDim S700x128x1024 ![] bcast_S_S700x128x1024 main_cst
  let main_v2 : IVec S700x128x1024 1 := cmpf .olt main_v0 main_v1
  let main_c : IVec S_ 1 := constantI S_ 1 1#1
  let main_v3 : IVec S_ 1 := (fun x v => Host.reduce IntOp.andi x v reducesTo_S700x128x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S89600x1024 : Shape := ⟨2, ![89600, 1024]⟩
abbrev S1x1024 : Shape := ⟨2, ![1, 1024]⟩
abbrev S89600x1 : Shape := ⟨2, ![89600, 1]⟩
abbrev S1792x1024 : Shape := ⟨2, ![1792, 1024]⟩
abbrev S1792x1 : Shape := ⟨2, ![1792, 1]⟩
abbrev S1792 : Shape := ⟨1, ![1792]⟩
abbrev S1x1 : Shape := ⟨2, ![1, 1]⟩
abbrev S700x128x1 : Shape := ⟨3, ![700, 128, 1]⟩
abbrev S128x700x1 : Shape := ⟨3, ![128, 700, 1]⟩

abbrev nBuf : Space → Nat
  | .hbm => 11
  | .vmem => 8
  | .smem => 0
  | _ => 0

abbrev bufTy : (tb : Table) → Fin (tcTables nBuf tb) → BufTy
  | .hbm, ⟨0, _⟩ => ⟨S700x128x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S89600x1024, .f32⟩
  | .hbm, ⟨6, _⟩ => ⟨S1024x1024, .bf16⟩
  | .hbm, ⟨7, _⟩ => ⟨S1x1024, .f32⟩
  | .hbm, ⟨8, _⟩ => ⟨S89600x1, .f32⟩
  | .hbm, ⟨9, _⟩ => ⟨S700x128x1, .f32⟩
  | .hbm, ⟨10, _⟩ => ⟨S128x700x1, .f32⟩
  | .local _ .vmem, ⟨0, _⟩ => ⟨S1792x1024, .f32⟩
  | .local _ .vmem, ⟨1, _⟩ => ⟨S1792x1024, .f32⟩
  | .local _ .vmem, ⟨2, _⟩ => ⟨S1024x1024, .bf16⟩
  | .local _ .vmem, ⟨3, _⟩ => ⟨S1024, .f32⟩
  | .local _ .vmem, ⟨4, _⟩ => ⟨S1x1024, .f32⟩
  | .local _ .vmem, ⟨5, _⟩ => ⟨S1, .f32⟩
  | .local _ .vmem, ⟨6, _⟩ => ⟨S1792x1, .f32⟩
  | .local _ .vmem, ⟨7, _⟩ => ⟨S1792x1, .f32⟩
  | _, _ => ⟨S700x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1792x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1792x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S700x128x1024_S89600x1024 : S700x128x1024.ShapeCasts S89600x1024
  bitsLt_bf16_f32 : FTy.bits .bf16 < FTy.bits .f32
  transposes_S1024x1_S1x1024_1_0 : S1024x1.Transposes [1, 0] S1x1024
  inb_S1792x1024_S1792x1024_0_0 : ∀ a, (![0, 0] : Fin 2 → Nat) a + S1792x1024.size a ≤ S1792x1024.size a
  h_S1792x1024 : 0 < S1792x1024.numel
  shapeCasts_S1792x1024_S1792x1024 : S1792x1024.ShapeCasts S1792x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1792x1024 : S1x1024.Broadcasts S1792x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1792x1024_S1792 : S1792x1024.Reduces [1] S1792
  shapeCasts_S1792_S1792x1 : S1792.ShapeCasts S1792x1
  inb_S1_S1_0 : ∀ a, (![0] : Fin 1 → Nat) a + S1.size a ≤ S1.size a
  h_S1 : 0 < S1.numel
  shapeCasts_S1_S1x1 : S1.ShapeCasts S1x1
  broadcasts_S1x1_S1792x1 : S1x1.Broadcasts S1792x1
  inb_S1792x1_S1792x1_0_0 : ∀ a, (![0, 0] : Fin 2 → Nat) a + S1792x1.size a ≤ S1792x1.size a
  h_S1792x1 : 0 < S1792x1.numel
  shapeCasts_S89600x1_S700x128x1 : S89600x1.ShapeCasts S700x128x1
  transposes_S700x128x1_S128x700x1_1_0_2 : S700x128x1.Transposes [1, 0, 2] S128x700x1
  dot_S1792x1024_S1024x1024_S1792x1024_1_0_0_1_n_n_wf : DotDims.WF S1792x1024 S1024x1024 S1792x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1792x1024.size a ≤ S89600x1024.size a
  hwx0_0 : ∀ i : grid0.Coords, EltTy.bits .f32 = 32 ∨ (Rect.block (s := S89600x1024) S1792x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1792x1.size a ≤ S89600x1.size a
  hwx0_5 : ∀ i : grid0.Coords, EltTy.bits .f32 = 32 ∨ (Rect.block (s := S89600x1) S1792x1.size (cc0_transform_5 i) (hinb0_5 i)).WholeWords (EltTy.packing .f32)

variable [Facts₀]

def dot_S1792x1024_S1024x1024_S1792x1024_1_0_0_1_n_n : DotDims S1792x1024 S1024x1024 S1792x1024 where
  lhsContracting := [1]
  rhsContracting := [0]
  lhsNonContracting := [0]
  rhsNonContracting := [1]
  lhsBatch := []
  rhsBatch := []
  wf := dot_S1792x1024_S1024x1024_S1792x1024_1_0_0_1_n_n_wf

abbrev win0_0 : Pipeline.Window sig grid0 :=
  Pipeline.Window.ofSpec (Memref.whole main_v0) S1792x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1792x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S700x128x1024 : Shape := ⟨3, ![700, 128, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S_ : Shape := ⟨0, ![]⟩
abbrev S700x128x1 : Shape := ⟨3, ![700, 128, 1]⟩
abbrev S1x1x1 : Shape := ⟨3, ![1, 1, 1]⟩
abbrev S128x700x1 : Shape := ⟨3, ![128, 700, 1]⟩

abbrev nBuf : Space → Nat
  | .hbm => 17
  | .vmem => 0
  | .smem => 0
  | _ => 0

abbrev bufTy : (tb : Table) → Fin (tcTables nBuf tb) → BufTy
  | .hbm, ⟨0, _⟩ => ⟨S700x128x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S700x128x1024, .f32⟩
  | .hbm, ⟨6, _⟩ => ⟨S1x1x1024, .f32⟩
  | .hbm, ⟨7, _⟩ => ⟨S700x128x1024, .f32⟩
  | .hbm, ⟨8, _⟩ => ⟨S700x128x1024, .f32⟩
  | .hbm, ⟨9, _⟩ => ⟨S_, .f32⟩
  | .hbm, ⟨10, _⟩ => ⟨S700x128x1024, .f32⟩
  | .hbm, ⟨11, _⟩ => ⟨S700x128x1024, .f32⟩
  | .hbm, ⟨12, _⟩ => ⟨S700x128x1, .f32⟩
  | .hbm, ⟨13, _⟩ => ⟨S1x1x1, .f32⟩
  | .hbm, ⟨14, _⟩ => ⟨S700x128x1, .f32⟩
  | .hbm, ⟨15, _⟩ => ⟨S700x128x1, .f32⟩
  | .hbm, ⟨16, _⟩ => ⟨S128x700x1, .f32⟩
  | _, _ => ⟨S700x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S700x128x1024_0_1_2 : S1x1x1024.BroadcastsInDim S700x128x1024 (![0, 1, 2] : Fin 3 → Fin S700x128x1024.rank)
  bcast_S_S700x128x1024 : S_.BroadcastsInDim S700x128x1024 (![] : Fin 0 → Fin S700x128x1024.rank)
  bcast_S1_S1x1x1_2 : S1.BroadcastsInDim S1x1x1 (![2] : Fin 1 → Fin S1x1x1.rank)
  bcast_S1x1x1_S700x128x1_0_1_2 : S1x1x1.BroadcastsInDim S700x128x1 (![0, 1, 2] : Fin 3 → Fin S700x128x1.rank)
  transposes_S700x128x1_S128x700x1_1_0_2 : S700x128x1.Transposes [1, 0, 2] S128x700x1
  dot_S700x128x1024_S1024x1024_S700x128x1024_2_0_01_1_n_n_wf : DotDims.WF S700x128x1024 S1024x1024 S700x128x1024 [2] [0] [0, 1] [1] [] []
  dot_S700x128x1024_S1024x1_S700x128x1_2_0_01_1_n_n_wf : DotDims.WF S700x128x1024 S1024x1 S700x128x1 [2] [0] [0, 1] [1] [] []

variable [Facts₀]

def dot_S700x128x1024_S1024x1024_S700x128x1024_2_0_01_1_n_n : DotDims S700x128x1024 S1024x1024 S700x128x1024 where
  lhsContracting := [2]
  rhsContracting := [0]
  lhsNonContracting := [0, 1]
  rhsNonContracting := [1]
  lhsBatch := []
  rhsBatch := []
  wf := dot_S700x128x1024_S1024x1024_S700x128x1024_2_0_01_1_n_n_wf
def dot_S700x128x1024_S1024x1_S700x128x1_2_0_01_1_n_n : DotDims S700x128x1024 S1024x1 S700x128x1 where
  lhsContracting := [2]
  rhsContracting := [0]
  lhsNonContracting := [0, 1]
  rhsNonContracting := [1]
  lhsBatch := []
  rhsBatch := []
  wf := dot_S700x128x1024_S1024x1_S700x128x1_2_0_01_1_n_n_wf

class Facts : Prop extends Facts₀ where

variable [Facts]
-- ==== Proof.MlpSpec.lean ====
/-
  The function both programs compute, stated once over the extended reals.

  A row `x : Fin 1024 → EReal` goes through two affine layers with a rectifier between them:
  the hidden unit `h` is `max (∑ d, x d · w1 d h + b1 h) 0`, and the one output is
  `∑ h, hidden h · w2 h + b2`.  The result array has one such output per (batch, residue) pair:
  entry `[b, r, 0]` is the output of the row `s_s[r, b, ·]`.

  Nothing here depends on either program: the two sides are each shown to be this function of
  the argument arrays, and so are equal.  No algebraic law beyond re-indexing the two sums is
  needed, so the inputs' finiteness is never used.  The zero of the rectifier is kept as the
  float word both programs carry (it is never evaluated).
-/
import Idealize.ShloMosaic.PureOps.Ideal
import Idealize.ShloMosaic.Lib.ValueIdx

noncomputable section

namespace Cert.MlpSpec

open Idealize.ShloMosaic Idealize.ShloMosaic.ValueIdx

/-- One row through both layers: `∑ h, max (∑ d, x d · w1 d h + b1 h) 0 · w2 h + b2`. -/
def rowOut (x : Fin 1024 → EReal) (w1 : Fin 1024 → Fin 1024 → EReal) (b1 : Fin 1024 → EReal)
    (w2 : Fin 1024 → EReal) (b2 : EReal) : EReal :=
  (∑ h : Fin 1024, max ((∑ d : Fin 1024, x d * w1 d h) + b1 h) (Ideal.ofBits .f32 0x00000000#32) * w2 h) + b2

/-- The row function depends on its five arguments only through their values. -/
theorem rowOut_congr {x x' : Fin 1024 → EReal} {w1 w1' : Fin 1024 → Fin 1024 → EReal} {b1 b1' : Fin 1024 → EReal}
    {w2 w2' : Fin 1024 → EReal} {b2 b2' : EReal} (hx : ∀ d, x d = x' d) (hw1 : ∀ d h, w1 d h = w1' d h)
    (hb1 : ∀ h, b1 h = b1' h) (hw2 : ∀ h, w2 h = w2' h) (hb2 : b2 = b2') :
    rowOut x w1 b1 w2 b2 = rowOut x' w1' b1' w2' b2' := by
  obtain rfl : x = x' := funext hx
  obtain rfl : w1 = w1' := funext fun d => funext (hw1 d)
  obtain rfl : b1 = b1' := funext hb1
  obtain rfl : w2 = w2' := funext hw2
  subst hb2
  rfl

/-- The result array `[128, 700, 1]` as a function of the five argument arrays: entry `[b, r, 0]` is the
    row `s_s[r, b, ·]` through both layers. -/
def result (x : (⟨3, ![700, 128, 1024]⟩ : Shape).Idx → EReal) (w1 : (⟨2, ![1024, 1024]⟩ : Shape).Idx → EReal)
    (b1 : (⟨1, ![1024]⟩ : Shape).Idx → EReal) (w2 : (⟨2, ![1024, 1]⟩ : Shape).Idx → EReal)
    (b2 : (⟨1, ![1]⟩ : Shape).Idx → EReal) : (⟨3, ![128, 700, 1]⟩ : Shape).Idx → EReal := fun i =>
  rowOut (fun d => x (ix3 (i 1) (i 0) d)) (fun d h => w1 (ix2 d h)) (fun h => b1 (ix1 h))
    (fun h => w2 (ix2 h ⟨0, Nat.one_pos⟩)) (b2 (ix1 ⟨0, Nat.one_pos⟩))

/-- The same rows laid out flat, as the kernel's region sees them: from the input flattened to `[89600, 1024]`
    (row `r · 128 + b` is `s_s[r, b, ·]`), the first layer's weights and bias, the second layer's weights as a row
    `[1, 1024]` and its bias, the column `[89600, 1]` whose entry `[n, 0]` is row `n` through both layers. -/
def rows (X : (⟨2, ![89600, 1024]⟩ : Shape).Idx → EReal) (W : (⟨2, ![1024, 1024]⟩ : Shape).Idx → EReal)
    (B1 : (⟨1, ![1024]⟩ : Shape).Idx → EReal) (W2 : (⟨2, ![1, 1024]⟩ : Shape).Idx → EReal)
    (B2 : (⟨1, ![1]⟩ : Shape).Idx → EReal) : (⟨2, ![89600, 1]⟩ : Shape).Idx → EReal := fun i =>
  rowOut (fun d => X (ix2 (i 0) d)) (fun d h => W (ix2 d h)) (fun h => B1 (ix1 h))
    (fun h => W2 (ix2 ⟨0, Nat.one_pos⟩ h)) (B2 (ix1 ⟨0, Nat.one_pos⟩))

end Cert.MlpSpec

end
-- ==== Proof.MlpBody.lean ====
/-
  The kernel body's arithmetic, read at one index of the block it stores.

  The body loads a block `x` of 1792 rows and the whole of `W1`, `b1`, the row `w2` and `b2`, and stores the
  column `y[p] = ∑ h, max (∑ d, x[p, d] · W1[d, h] + b1[h]) 0 · w2[0, h] + b2[0]`.  Its stored value is one pure
  term (the generated payload); this module reads that term at the index `[p, q]` of the stored `[1792, 1]`
  block, one operation at a time:

  * a change of float format is the identity on extended reals, and a shape cast to the same shape is the identity;
  * the matrix product into the zero accumulator is the sum over the contracted axis;
  * a row vector broadcast down the rows reads its entry at the column;
  * the lane sum of a `[1792, 1024]` value at row `p` is the sum over the 1024 columns;
  * the cast `[1792] → [1792, 1]` keeps the row.

  Every lemma is stated over variables of the literal vector types and explicit coordinates.
-/
import proofs.«107884_j30073361006607_2_alg».proof.Proof.Gen.KernelIdeal.Skeleton
import proofs.«107884_j30073361006607_2_alg».proof.Proof.MlpSpec
import Idealize.ShloMosaic.Lib.ValueIdx
import Idealize.ShloMosaic.Lib.Pipeline.Value
import Idealize.ShloMosaic.PureOps.Ideal.Laws

noncomputable section

namespace Cert.KernelIdeal.MlpBody

open Idealize.ShloMosaic Idealize.ShloMosaic.ValueIdx Cert.KernelIdeal Cert.KernelIdeal.Gen

/-! ## Layout operations of the body at an index -/

/-- The second bias, cast `[1] → [1, 1]` and broadcast down the 1792 rows, reads its one entry everywhere. -/
theorem bias_col (x4 : Vec Ideal S1 .f32) (h1 : S1.ShapeCasts S1x1) (h2 : S1x1.Broadcasts S1792x1) (p : Fin 1792) (q : Fin 1) :
    broadcastTo S1792x1 (shapeCast S1x1 x4 h1) h2 (ix2 p q) = x4 (ix1 ⟨0, Nat.one_pos⟩) := by
  refine (broadcastTo_apply _ h2 (ix2 p q) (ix2 ⟨0, Nat.one_pos⟩ ⟨0, Nat.one_pos⟩) (fun a => ?_)).trans ?_
  · match a with
    | ⟨0, _⟩ => rfl
    | ⟨1, _⟩ => rfl
  · refine shapeCast_apply x4 h1 _ (ix1 ⟨0, Nat.one_pos⟩) ?_
    rfl

/-- The first bias, cast `[1024] → [1, 1024]` and broadcast down the rows, reads entry `k` at column `k`. -/
theorem b1_row (x2 : Vec Ideal S1024 .f32) (h1 : S1024.ShapeCasts S1x1024) (h2 : S1x1024.Broadcasts S1792x1024) (p : Fin 1792) (k : Fin 1024) :
    broadcastTo S1792x1024 (shapeCast S1x1024 x2 h1) h2 (ix2 p k) = x2 (ix1 k) := by
  refine (broadcastTo_apply _ h2 (ix2 p k) (ix2 ⟨0, Nat.one_pos⟩ k) (fun a => ?_)).trans ?_
  · match a with
    | ⟨0, _⟩ => rfl
    | ⟨1, _⟩ => rfl
  · refine shapeCast_apply x2 h1 _ (ix1 k) ?_
    rw [Shape.rowMajor_val_one, Shape.rowMajor_val_two]
    show k.val = 0 * 1024 + k.val
    omega

/-- The second layer's weights as a row `[1, 1024]`, broadcast down the rows, read entry `[0, k]` at column `k`. -/
theorem w2_row (x3 : Vec Ideal S1x1024 .f32) (h1 : S1x1024.ShapeCasts S1x1024) (h2 : S1x1024.Broadcasts S1792x1024) (p : Fin 1792) (k : Fin 1024) :
    broadcastTo S1792x1024 (shapeCast S1x1024 x3 h1) h2 (ix2 p k) = x3 (ix2 ⟨0, Nat.one_pos⟩ k) := by
  rw [shapeCast_self]
  refine broadcastTo_apply _ h2 (ix2 p k) (ix2 ⟨0, Nat.one_pos⟩ k) (fun a => ?_)
  match a with
  | ⟨0, _⟩ => rfl
  | ⟨1, _⟩ => rfl

/-- A `[1792]` vector viewed as a `[1792, 1]` column keeps its row. -/
theorem col_of_lanes (v : FVec Ideal S1792 .f32) (h : S1792.ShapeCasts S1792x1) (p : Fin 1792) (q : Fin 1) :
    shapeCast S1792x1 v h (ix2 p q) = v (ix1 p) := by
  refine shapeCast_apply v h _ (ix1 p) ?_
  rw [Shape.rowMajor_val_one, Shape.rowMajor_val_two]
  show p.val = p.val * 1 + q.val
  have := q.isLt
  omega

/-- The sum along the lanes of a `[1792, 1024]` value, at row `p`, is the sum over the columns. -/
theorem lane_sum (v : FVec Ideal S1792x1024 .f32) (h : S1792x1024.Reduces [1] S1792) (hφ : FKind.Formats .f32)
    (hacc : (0x00000000#32 : BitVec 32) = FKind.add.neutral .f32 hφ) (p : Fin 1792) :
    multiReduction .add [1] S1792 v 0x00000000#32 h hφ hacc (ix1 p) = ∑ k : Fin 1024, v (ix2 p k) := by
  rw [Ideal.multiReduction_add_single]
  refine Finset.sum_congr rfl fun k _ => congrArg v ?_
  funext a
  match a with
  | ⟨0, _⟩ => rfl
  | ⟨1, _⟩ => rfl

/-! ## The matrix product read at an index -/

theorem mm_lhs_0 (j : S1792x1024.Idx) (q : dot_S1792x1024_S1024x1024_S1792x1024_1_0_0_1_n_n.contr.Idx) :
    (dot_S1792x1024_S1024x1024_S1792x1024_1_0_0_1_n_n.lhsIdx j q 0).val = (j 0).val := by
  unfold DotDims.lhsIdx
  rw [dif_neg (show ¬(0 : Fin S1792x1024.rank) ∈ dot_S1792x1024_S1024x1024_S1792x1024_1_0_0_1_n_n.lhsBatch by decide), dif_pos (show (0 : Fin S1792x1024.rank) ∈ dot_S1792x1024_S1024x1024_S1792x1024_1_0_0_1_n_n.lhsNonContracting by decide)]
  rfl
theorem mm_lhs_1 (j : S1792x1024.Idx) (q : dot_S1792x1024_S1024x1024_S1792x1024_1_0_0_1_n_n.contr.Idx) :
    (dot_S1792x1024_S1024x1024_S1792x1024_1_0_0_1_n_n.lhsIdx j q 1).val = (q ⟨0, by decide⟩).val :=
  dot_S1792x1024_S1024x1024_S1792x1024_1_0_0_1_n_n.lhsIdx_val_of_single rfl j q
theorem mm_rhs_0 (j : S1792x1024.Idx) (q : dot_S1792x1024_S1024x1024_S1792x1024_1_0_0_1_n_n.contr.Idx) :
    (dot_S1792x1024_S1024x1024_S1792x1024_1_0_0_1_n_n.rhsIdx j q 0).val = (q ⟨0, by decide⟩).val :=
  dot_S1792x1024_S1024x1024_S1792x1024_1_0_0_1_n_n.rhsIdx_val_of_single rfl j q
theorem mm_rhs_1 (j : S1792x1024.Idx) (q : dot_S1792x1024_S1024x1024_S1792x1024_1_0_0_1_n_n.contr.Idx) :
    (dot_S1792x1024_S1024x1024_S1792x1024_1_0_0_1_n_n.rhsIdx j q 1).val = (j 1).val := by
  unfold DotDims.rhsIdx
  rw [dif_neg (show ¬(1 : Fin S1024x1024.rank) ∈ dot_S1792x1024_S1024x1024_S1792x1024_1_0_0_1_n_n.rhsBatch by decide), dif_pos (show (1 : Fin S1024x1024.rank) ∈ dot_S1792x1024_S1024x1024_S1792x1024_1_0_0_1_n_n.rhsNonContracting by decide)]
  rfl

theorem product_at (x0 : Vec Ideal S1792x1024 .f32) (x1 : Vec Ideal S1024x1024 .bf16) (hb : FTy.bits .bf16 < FTy.bits .f32)
    (h0 : S1792x1024.ShapeCasts S1792x1024) (h1 : S1024x1024.ShapeCasts S1024x1024) (p : Fin 1792) (k : Fin 1024) :
    matmul dot_S1792x1024_S1024x1024_S1792x1024_1_0_0_1_n_n none (truncf .bf16 (shapeCast S1792x1024 x0 h0) hb)
        (shapeCast S1024x1024 x1 h1 : FVec Ideal S1024x1024 .bf16) (constant (F := Ideal) S1792x1024 .f32 0x00000000#32) (ix2 p k)
      = ∑ d : Fin 1024, x0 (ix2 p d) * x1 (ix2 d k) := by
  rw [shapeCast_self, shapeCast_self]
  simp only [matmul]
  rw [Ideal.matmul_constant_zero_apply, ← Equiv.sum_comp (contrEquiv1 dot_S1792x1024_S1024x1024_S1792x1024_1_0_0_1_n_n 1024 rfl rfl).symm]
  refine Finset.sum_congr rfl fun d _ => ?_
  have hd := contrEquiv1_symm_val dot_S1792x1024_S1024x1024_S1792x1024_1_0_0_1_n_n 1024 rfl rfl d
  have el : dot_S1792x1024_S1024x1024_S1792x1024_1_0_0_1_n_n.lhsIdx (ix2 p k) ((contrEquiv1 dot_S1792x1024_S1024x1024_S1792x1024_1_0_0_1_n_n 1024 rfl rfl).symm d) = ix2 p d := funext fun a => Fin.ext (by
    match a with
    | ⟨0, _⟩ => exact mm_lhs_0 _ _
    | ⟨1, _⟩ => exact (mm_lhs_1 _ _).trans hd)
  have er : dot_S1792x1024_S1024x1024_S1792x1024_1_0_0_1_n_n.rhsIdx (ix2 p k) ((contrEquiv1 dot_S1792x1024_S1024x1024_S1792x1024_1_0_0_1_n_n 1024 rfl rfl).symm d) = ix2 d k := funext fun a => Fin.ext (by
    match a with
    | ⟨0, _⟩ => exact (mm_rhs_0 _ _).trans hd
    | ⟨1, _⟩ => exact mm_rhs_1 _ _)
  rw [el, er]
  rfl

/-! ## The stored column at an index -/

/-- The body's stored value at `[p, q]` is row `p` of the loaded block through both layers. -/
theorem pay_at (x0 : Vec Ideal S1792x1024 .f32) (x1 : Vec Ideal S1024x1024 .bf16) (x2 : Vec Ideal S1024 .f32)
    (x3 : Vec Ideal S1x1024 .f32) (x4 : Vec Ideal S1 .f32) (p : Fin 1792) (q : Fin 1) :
    k0_pay1 (F := Ideal) x0 x1 x2 x3 x4 (ix2 p q)
      = Cert.MlpSpec.rowOut (fun d => x0 (ix2 p d)) (fun d h => x1 (ix2 d h)) (fun h => x2 (ix1 h))
          (fun h => x3 (ix2 ⟨0, Nat.one_pos⟩ h)) (x4 (ix1 ⟨0, Nat.one_pos⟩)) := by
  unfold k0_pay1 Cert.MlpSpec.rowOut
  dsimp only
  rw [addf_apply, col_of_lanes, bias_col]
  refine congrArg (· + x4 (ix1 ⟨0, Nat.one_pos⟩)) ?_
  refine (lane_sum _ _ _ _ p).trans (Finset.sum_congr rfl fun h _ => ?_)
  rw [mulf_apply, w2_row, maximumf_apply, addf_apply, b1_row, product_at]
  rfl

/-- The stored column as a function of the block index: row `j 0` of the loaded block through both layers. -/
theorem pay_fn (x0 : Vec Ideal S1792x1024 .f32) (x1 : Vec Ideal S1024x1024 .bf16) (x2 : Vec Ideal S1024 .f32)
    (x3 : Vec Ideal S1x1024 .f32) (x4 : Vec Ideal S1 .f32) :
    k0_pay1 (F := Ideal) x0 x1 x2 x3 x4
      = fun j : S1792x1.Idx => Cert.MlpSpec.rowOut (fun d => x0 (ix2 (j 0) d)) (fun d h => x1 (ix2 d h)) (fun h => x2 (ix1 h))
          (fun h => x3 (ix2 ⟨0, Nat.one_pos⟩ h)) (x4 (ix1 ⟨0, Nat.one_pos⟩)) := by
  funext j
  obtain ⟨p, q, rfl⟩ : ∃ (p : Fin 1792) (q : Fin 1), j = ix2 p q := ⟨j 0, j 1, eq_ix2 j⟩
  exact pay_at x0 x1 x2 x3 x4 p q

end Cert.KernelIdeal.MlpBody

end
-- ==== Proof.MlpBlocks.lean ====
/-
  From the blocks the grid points write back to the whole column the region leaves.

  The grid has 50 points.  At point `t` the input window holds rows `1792·t … 1792·t + 1791` of the flattened
  input (all 1024 columns), the four parameter windows hold their whole arrays at every point, and the output
  window is rows `1792·t … 1792·t + 1791` of the `[89600, 1]` column.  The body stores, at row `p` of its block,
  row `p` of the loaded input block through both layers; since the input block's row `p` is row `1792·t + p` of the
  flattened input, what point `t` writes back is block `t` of ONE function of the arrays: the flat column of the
  specification.  The 50 output blocks tile the column (row `n` lies in block `n / 1792`), so after the last point
  the array is that column.
-/
import proofs.«107884_j30073361006607_2_alg».proof.Proof.Gen.KernelIdeal.Frame
import proofs.«107884_j30073361006607_2_alg».proof.Proof.MlpBody
import proofs.«107884_j30073361006607_2_alg».proof.Proof.MlpSpec

set_option maxRecDepth 16384

noncomputable section

namespace Cert.KernelIdeal.MlpBlocks

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

theorem zeros2 : (![0, 0] : Fin 2 → Nat) = fun _ => 0 := funext fun a => by fin_cases a <;> rfl
theorem zeros1 : (![0] : Fin 1 → Nat) = fun _ => 0 := funext fun a => by fin_cases a <;> rfl

/-- The block indices of the six windows at a point, decided over the 50 points: the input and the output move
    one block of rows per point, the parameters stay at their only block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the flat column of the arrays as the region finds them. -/
theorem flushed_eq (c : Dev nD) (t : Fin cfg0.N) :
    (dats m 0 c).flushed 5 t = ((cfg0.win 5).blk t).view.read (Elt Ideal)
      (Cert.MlpSpec.rows (V m c main_v0) (V m c main_v1) (V m c main_arg2) (V m c main_v2) (V m c main_arg4)) := by
  show (cfg0.win 5).cut (grid0.coords t) ((dats m 0 c).after 5 t) = _
  rw [after0_5]
  unfold out0_5
  rw [View.canon_unit_zero zeros2]
  simp only [View.ld_unit_zero (S := S1792x1024) zeros2, View.ld_unit_zero (S := S1024x1024) zeros2,
    View.ld_unit_zero (S := S1024) zeros1, View.ld_unit_zero (S := S1x1024) zeros2, View.ld_unit_zero (S := S1) zeros1]
  obtain ⟨e00, e01, e10, e11, e20, e30, e31, e40, e50, e51⟩ := idx_facts t
  refine (MlpBody.pay_fn (iblk m c 0 t) (iblk m c 1 t) (iblk m c 2 t) (iblk m c 3 t) (iblk m c 4 t)).trans ?_
  funext j
  rw [View.read_apply]
  unfold Cert.MlpSpec.rows
  refine Cert.MlpSpec.rowOut_congr (fun d => ?_) (fun d h => ?_) (fun h => ?_) (fun h => ?_) ?_
  · show V m c main_v0 (((cfg0.win 0).blk t).view.emb (ix2 (j 0) d)) = V m c main_v0 (ix2 ((((cfg0.win 5).blk t).view.emb j) 0) d)
    refine congrArg (V m c main_v0) (funext fun a => Fin.ext ?_)
    match a with
    | ⟨0, _⟩ => show win0_0.index t (0 : Fin 2) * 1792 + 1 * (j 0).val = win0_5.index t (0 : Fin 2) * 1792 + 1 * (j 0).val; omega
    | ⟨1, _⟩ => show win0_0.index t (1 : Fin 2) * 1024 + 1 * d.val = d.val; omega
  · show V m c main_v1 (((cfg0.win 1).blk t).view.emb (ix2 d h)) = V m c main_v1 (ix2 d h)
    refine congrArg (V m c main_v1) (funext fun a => Fin.ext ?_)
    match a with
    | ⟨0, _⟩ => show win0_1.index t (0 : Fin 2) * 1024 + 1 * d.val = d.val; omega
    | ⟨1, _⟩ => show win0_1.index t (1 : Fin 2) * 1024 + 1 * h.val = h.val; omega
  · show V m c main_arg2 (((cfg0.win 2).blk t).view.emb (ix1 h)) = V m c main_arg2 (ix1 h)
    refine congrArg (V m c main_arg2) (funext fun a => Fin.ext ?_)
    match a with
    | ⟨0, _⟩ => show win0_2.index t (0 : Fin 1) * 1024 + 1 * h.val = h.val; omega
  · show V m c main_v2 (((cfg0.win 3).blk t).view.emb (ix2 ⟨0, Nat.one_pos⟩ h)) = V m c main_v2 (ix2 ⟨0, Nat.one_pos⟩ h)
    refine congrArg (V m c main_v2) (funext fun a => Fin.ext ?_)
    match a with
    | ⟨0, _⟩ => show win0_3.index t (0 : Fin 2) * 1 + 1 * 0 = 0; omega
    | ⟨1, _⟩ => show win0_3.index t (1 : Fin 2) * 1024 + 1 * h.val = h.val; omega
  · show V m c main_arg4 (((cfg0.win 4).blk t).view.emb (ix1 ⟨0, Nat.one_pos⟩)) = V m c main_arg4 (ix1 ⟨0, Nat.one_pos⟩)
    refine congrArg (V m c main_arg4) (funext fun a => Fin.ext ?_)
    match a with
    | ⟨0, _⟩ => show win0_4.index t (0 : Fin 1) * 1 + 1 * 0 = 0; omega

/-- A row index of the column is in point `t`'s block iff each coordinate is in the block's range on its axis. -/
theorem mem_blk (t : Fin cfg0.N) (i : S89600x1.Idx) :
    i ∈ ((cfg0.win 5).blk t).view.set ↔ ∀ a : Fin 2, win0_5.index t a * S1792x1.size a ≤ (i a).val ∧ (i a).val < win0_5.index t a * S1792x1.size a + S1792x1.size a := by
  show i ∈ ((View.whole main_v3).slice (win0_5.rect t)).set ↔ _
  rw [View.set_slice_whole, Rect.mem_set_unit]
  exact Iff.rfl

/-- Every row of the column is in some point's block: row `n` in that of point `n / 1792`. -/
theorem cover (i : S89600x1.Idx) :
    ∃ t : Fin cfg0.N, (cfg0.win 5).flush t = true ∧ i ∈ ((cfg0.win 5).blk t).view.set := by
  have hi0 : (i 0).val < 89600 := (i 0).isLt
  have hi1 : (i 1).val < 1 := (i 1).isLt
  have hN : (i 0).val / 1792 < grid0.N := by rw [N_0]; omega
  obtain ⟨-, -, -, -, -, -, -, -, e50, e51⟩ := idx_facts ⟨(i 0).val / 1792, hN⟩
  have e50' : win0_5.index ⟨(i 0).val / 1792, hN⟩ (0 : Fin 2) = (i 0).val / 1792 := e50
  refine ⟨⟨(i 0).val / 1792, hN⟩, flush0_5 _, ?_⟩
  rw [mem_blk]
  intro a
  match a with
  | ⟨0, _⟩ =>
    show win0_5.index ⟨(i 0).val / 1792, hN⟩ (0 : Fin 2) * 1792 ≤ (i 0).val ∧ (i 0).val < win0_5.index ⟨(i 0).val / 1792, hN⟩ (0 : Fin 2) * 1792 + 1792
    omega
  | ⟨1, _⟩ =>
    show win0_5.index ⟨(i 0).val / 1792, hN⟩ (1 : Fin 2) * 1 ≤ (i 1).val ∧ (i 1).val < win0_5.index ⟨(i 0).val / 1792, hN⟩ (1 : Fin 2) * 1 + 1
    omega

/-- THE COLUMN after the last point: the flat column of the arrays as the region finds them. -/
theorem final (c : Dev nD) :
    (dats m 0 c).arrAt 5 cfg0.N
      = Cert.MlpSpec.rows (V m c main_v0) (V m c main_v1) (V m c main_arg2) (V m c main_v2) (V m c main_arg4) :=
  (dats m 0 c).arrAt_eq_of_cover 5 _ (fun t _ => flushed_eq m c t) cover

end Cert.KernelIdeal.MlpBlocks

end
-- ==== Proof.MlpLayout.lean ====
/-
  The kernel's host operations around its region, as one pure statement.

  Before the region the input `[700, 128, 1024]` is flattened to `[89600, 1024]` (row `r · 128 + b` is
  `s_s[r, b, ·]`: the two arrays have the same row-major order), the first layer's weights change float format
  (the identity on extended reals) and the second layer's weights `[1024, 1]` are transposed into a row
  `[1, 1024]`.  After it the column `[89600, 1]` is viewed as `[700, 128, 1]` and its first two axes are swapped.
  So entry `[b, r, 0]` of the final array is entry `[r · 128 + b, 0]` of the column, which is the row
  `s_s[r, b, ·]` through both layers: the specification's result.
-/
import proofs.«107884_j30073361006607_2_alg».proof.Proof.Gen.KernelIdeal
import proofs.«107884_j30073361006607_2_alg».proof.Proof.MlpSpec
import Idealize.ShloMosaic.Lib.ValueIdx
import Idealize.ShloMosaic.Lib.Pipeline.Value

noncomputable section

namespace Cert.KernelIdeal.MlpLayout

open Idealize.ShloMosaic Idealize.ShloMosaic.ValueIdx Cert.KernelIdeal

/-- The flattened input at row `n = r · 128 + b`, column `d`, is `s_s[r, b, d]`. -/
theorem flat_at (x : S700x128x1024.Idx → EReal) (h : S700x128x1024.ShapeCasts S89600x1024) (r : Fin 700) (b : Fin 128)
    (d : Fin 1024) (n : Fin 89600) (hn : n.val = r.val * 128 + b.val) :
    shapeCast S89600x1024 x h (ix2 n d) = x (ix3 r b d) := by
  refine shapeCast_apply x h _ (ix3 r b d) ?_
  rw [Shape.rowMajor_val_three, Shape.rowMajor_val_two]
  show (r.val * 128 + b.val) * 1024 + d.val = n.val * 1024 + d.val
  rw [hn]

/-- The transposed second layer at `[0, k]` is `W2[k, 0]`. -/
theorem w2_at (w2 : S1024x1.Idx → EReal) (h : S1024x1.Transposes [1, 0] S1x1024) (k : Fin 1024) :
    transpose S1x1024 [1, 0] w2 h (ix2 ⟨0, Nat.one_pos⟩ k) = w2 (ix2 k ⟨0, Nat.one_pos⟩) := by
  refine transpose_apply [1, 0] w2 h _ (ix2 k ⟨0, Nat.one_pos⟩) (fun b => ?_)
  match b with
  | ⟨0, _⟩ => rfl
  | ⟨1, _⟩ => rfl

/-- The flat rows of the re-laid arguments, viewed `[700, 128, 1]` and transposed, are the specification's result. -/
theorem assemble (x : S700x128x1024.Idx → EReal) (w1 : S1024x1024.Idx → EReal) (b1 : S1024.Idx → EReal)
    (w2 : S1024x1.Idx → EReal) (b2 : S1.Idx → EReal) (hs0 : S700x128x1024.ShapeCasts S89600x1024)
    (hb : FTy.bits .bf16 < FTy.bits .f32) (ht0 : S1024x1.Transposes [1, 0] S1x1024)
    (hs1 : S89600x1.ShapeCasts S700x128x1) (ht1 : S700x128x1.Transposes [1, 0, 2] S128x700x1) :
    transpose S128x700x1 [1, 0, 2]
        (shapeCast S700x128x1
          (Cert.MlpSpec.rows (shapeCast S89600x1024 x hs0) (truncf (F := Ideal) .bf16 (w1 : FVec Ideal S1024x1024 .f32) hb) b1
            (transpose S1x1024 [1, 0] w2 ht0) b2) hs1) ht1
      = Cert.MlpSpec.result x w1 b1 w2 b2 := by
  funext i
  have hi0 : (i 0).val < 128 := (i 0).isLt
  have hi1 : (i 1).val < 700 := (i 1).isLt
  have hi2 : (i 2).val < 1 := (i 2).isLt
  refine (transpose_apply [1, 0, 2] _ ht1 i (ix3 (i 1) (i 0) (i 2)) (fun b => ?_)).trans ?_
  · match b with
    | ⟨0, _⟩ => rfl
    | ⟨1, _⟩ => rfl
    | ⟨2, _⟩ => rfl
  refine (shapeCast_apply _ hs1 _ (ix2 (⟨(i 1).val * 128 + (i 0).val, by omega⟩ : Fin 89600) (⟨0, Nat.one_pos⟩ : Fin 1)) ?_).trans ?_
  · rw [Shape.rowMajor_val_two, Shape.rowMajor_val_three]
    show ((i 1).val * 128 + (i 0).val) * 1 + 0 = ((i 1).val * 128 + (i 0).val) * 1 + (i 2).val
    omega
  unfold Cert.MlpSpec.rows Cert.MlpSpec.result
  exact Cert.MlpSpec.rowOut_congr (fun d => flat_at x hs0 (i 1) (i 0) d _ rfl) (fun _ _ => rfl) (fun _ => rfl)
    (fun k => w2_at w2 ht0 k) rfl

end Cert.KernelIdeal.MlpLayout

end
-- ==== Proof.MlpRun.lean ====
/-
  The idealized kernel's run, with its result named.

  Every weakly fair execution of the kernel program terminates with the argument arrays unchanged and the result
  array `[128, 700, 1]` at the specification's result of the arguments.  The pieces:

  * the arrays the region finds are the host operations before it applied to the arguments — the input flattened,
    the first layer's weights in the narrower float format, the second layer's weights transposed into a row; the two
    biases are the arguments themselves;
  * the region leaves its output array at the flat column of those arrays (the blocks tile it);
  * the two host operations after the region view the column as `[700, 128, 1]` and swap its first two axes;
  * re-laid this way the flat column is the specification's result (a pure statement about the layouts).
-/
import proofs.«107884_j30073361006607_2_alg».proof.Proof.Gen.KernelIdeal.Frame
import proofs.«107884_j30073361006607_2_alg».proof.Proof.MlpBlocks
import proofs.«107884_j30073361006607_2_alg».proof.Proof.MlpLayout
import Idealize.ShloMosaic.Lib.StableHlo.Run

set_option maxRecDepth 16384

noncomputable section

namespace Cert.KernelIdeal.MlpRun

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg)

/-! ## The arrays the region finds -/

/-- The region's input array is the first argument flattened to `[89600, 1024]`. -/
theorem V_v0 (c : Dev nD) :
    (V m c main_v0 : S89600x1024.Idx → EReal)
      = shapeCast S89600x1024 (m ((c : Thread nD τ).loc main_arg0)) shapeCasts_S700x128x1024_S89600x1024 := by
  show StableHlo.after hostOps0 (fun b => m (c, b)) (Proc.devRef .tc main_v0) = _
  after_results
  rfl

/-- The first layer's weights as the region finds them: the second argument in the narrower format. -/
theorem V_v1 (c : Dev nD) :
    (V m c main_v1 : S1024x1024.Idx → EReal)
      = truncf (F := Ideal) .bf16 (m ((c : Thread nD τ).loc main_arg1) : FVec Ideal S1024x1024 .f32) bitsLt_bf16_f32 := by
  show StableHlo.after hostOps0 (fun b => m (c, b)) (Proc.devRef .tc main_v1) = _
  after_results

/-- The second layer's weights as the region finds them: the fourth argument transposed into a row. -/
theorem V_v2 (c : Dev nD) :
    (V m c main_v2 : S1x1024.Idx → EReal)
      = transpose S1x1024 [1, 0] (m ((c : Thread nD τ).loc main_arg3)) transposes_S1024x1_S1x1024_1_0 := by
  show StableHlo.after hostOps0 (fun b => m (c, b)) (Proc.devRef .tc main_v2) = _
  after_results

/-! ## The host operations after the region -/

/-- The column `[89600, 1]` as the region leaves it, read where the later host operations read it. -/
def regionOut (c : Dev nD) : S89600x1.Idx → EReal :=
  Pipeline.withArrays (cfgs 0).spec c (V0 m c) (fun w => (dats m 0 c).arrAt w (cfgs 0).N) (Proc.devRef .tc main_v3)

/-- It is the output window's array after the last grid point. -/
theorem regionOut_eq (c : Dev nD) : regionOut m c = (dats m 0 c).arrAt 5 cfg0.N :=
  Pipeline.withArrays_arr spec0 launch0.win.arr_inj c _ _ 5

/-- The result array is that column viewed `[700, 128, 1]` with its first two axes swapped. -/
theorem tail_eq (c : Dev nD) :
    (Pipeline.afterTail₀ cfgs (dats m) 0 (V0 m) [hostOps1] c main_v5 : S128x700x1.Idx → EReal)
      = transpose S128x700x1 [1, 0, 2] (shapeCast S700x128x1 (regionOut m c) shapeCasts_S89600x1_S700x128x1)
          transposes_S700x128x1_S128x700x1_1_0_2 := by
  unfold Pipeline.afterTail₀
  show StableHlo.after hostOps1 _ (Proc.devRef .tc main_v5) = _
  after_results
  rfl

/-! ## The result -/

/-- The result array after the run is the specification's result of the argument arrays. -/
theorem value (c : Dev nD) :
    (Pipeline.afterTail₀ cfgs (dats m) 0 (V0 m) [hostOps1] c main_v5 : S128x700x1.Idx → EReal)
      = Cert.MlpSpec.result (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq, regionOut_eq, MlpBlocks.final, V_v0, V_v1, V_v2, V_main_arg2, V_main_arg4]
  exact MlpLayout.assemble _ _ _ _ _ _ _ _ _ _

/-- Every weakly fair execution of the idealized kernel terminates with the result array at the specification's
    result of the arguments and the arguments unchanged. -/
theorem run : θ_run defs (onTc (τ := τ) (main (F := Ideal))) ⟨m, fun _ => 0, ρ⟩ (fun r => ∀ c : Dev nD,
      r.2.mem ((c.tc : Thread nD τ).loc main_v5)
        = Cert.MlpSpec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v5 (Pipeline.mem_restRefs_of main_v5 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.MlpRun

end
-- ==== Proof.MlpRef.lean ====
/-
  The reference computes the specification.

  The reference's result is the composition of its twelve host operations; the generated read-at-an-index lemmas
  give each stage at an index from its operands at an index.  Chained from the final transpose inwards, entry
  `[b, r, 0]` of the result is
  `∑ k, max (∑ d, s_s[r, b, d] · W1[d, k] + b1[k]) 0 · W2[k, 0] + b2[0]`:
  the transpose swaps the first two coordinates, each product's contracted index runs over the last axis of its left
  operand and the first of its right, and each broadcast bias reads its one relevant coordinate.  What remains is
  to identify the composed index maps with plain coordinate triples and pairs (five small equations, each by cases
  on the axis); the last axis of the result has extent one, so its coordinate is zero.
-/
import proofs.«107884_j30073361006607_2_alg».proof.Proof.Gen.ReferenceIdeal.Read
import proofs.«107884_j30073361006607_2_alg».proof.Proof.MlpSpec

noncomputable section

namespace Cert.ReferenceIdeal.MlpRef

open Idealize.ShloMosaic Idealize.ShloMosaic.ValueIdx Cert.ReferenceIdeal Cert.ReferenceIdeal.Read

/-- The input entry the first product reads for result index `i`, hidden unit `k`, contracted index `d`: `[i 1, i 0, d]`. -/
theorem x_idx (i : S128x700x1.Idx) (k d : Fin 1024) :
    lidx_main_v0 (lidx_main_v5 (idx_main_v9 i) k) d = ix3 (i 1) (i 0) d := by
  funext a
  match a with
  | ⟨0, _⟩ => rfl
  | ⟨1, _⟩ => rfl
  | ⟨2, _⟩ => rfl

/-- The first layer's weight it is multiplied with: `[d, k]`. -/
theorem w1_idx (i : S128x700x1.Idx) (k d : Fin 1024) :
    ridx_main_v0 (lidx_main_v5 (idx_main_v9 i) k) d = ix2 d k := by
  funext a
  match a with
  | ⟨0, _⟩ => rfl
  | ⟨1, _⟩ => rfl

/-- The first bias, broadcast twice, is read at `[k]`. -/
theorem b1_idx (i : S128x700x1.Idx) (k : Fin 1024) :
    idx_main_v1 (idx_main_v2 (lidx_main_v5 (idx_main_v9 i) k)) = ix1 k := by
  funext a
  match a with
  | ⟨0, _⟩ => rfl

/-- The second layer's weight for hidden unit `k`: `[k, 0]` (the result's last axis has extent one). -/
theorem w2_idx (i : S128x700x1.Idx) (k : Fin 1024) :
    ridx_main_v5 (idx_main_v9 i) k = ix2 k ⟨0, Nat.one_pos⟩ := by
  funext a
  match a with
  | ⟨0, _⟩ => rfl
  | ⟨1, _⟩ => exact Fin.ext (by have h : (i 2).val < 1 := (i 2).isLt; show (i 2).val = 0; omega)

/-- The second bias, broadcast twice, is read at `[0]`. -/
theorem b2_idx (i : S128x700x1.Idx) :
    idx_main_v6 (idx_main_v7 (idx_main_v9 i)) = ix1 ⟨0, Nat.one_pos⟩ := by
  funext a
  match a with
  | ⟨0, _⟩ => rfl

/-- The reference's last stage is the specification's result array of the five arguments. -/
theorem ref_eq (x0 : (⟨S700x128x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1, .f32⟩ : BufTy).Contents (Elt Ideal))
    (x4 : (⟨S1, .f32⟩ : BufTy).Contents (Elt Ideal)) :
    val_main_v9 (F := Ideal) x0 x1 x2 x3 x4 = Cert.MlpSpec.result x0 x1 x2 x3 x4 := by
  funext i
  rw [val_main_v9_apply, val_main_v8_apply, val_main_v5_apply, val_main_v7_apply, val_main_v6_apply]
  simp only [val_main_v4_apply, val_main_v3_apply, val_main_v0_apply, val_main_v2_apply, val_main_v1_apply,
    val_main_call0_v0_apply, val_main_call0_cst_apply, x_idx, w1_idx, b1_idx, w2_idx, b2_idx]
  rfl

end Cert.ReferenceIdeal.MlpRef

end
-- ==== Proof.lean ====
/-
  The kernel computes a two-layer perceptron with a rectifier, row by row, and so does its reference.

  The kernel flattens the input `s_s : [700, 128, 1024]` to `[89600, 1024]`, and over 50 grid points, 1792 rows at
  a time, computes `y[n] = ∑ h, max (∑ d, x[n, d] · W1[d, h] + b1[h]) 0 · W2[h, 0] + b2[0]`: a matrix product into a
  zero accumulator, a broadcast bias, a maximum with zero, a product with the second layer's weights laid out as a
  row, a sum along the lanes, and the second bias.  The column `[89600, 1]` is then viewed as `[700, 128, 1]` and
  its first two axes are swapped.  The reference contracts `s_s` with `W1` over the last axis, adds `b1`, takes the
  maximum with zero, contracts with `W2`, adds `b2`, and swaps the same two axes.

  Over the extended reals, where a change of float format is the identity and every operation is exact, both
  results are ONE function of the five arguments (`Cert.MlpSpec.result`): entry `[b, r, 0]` is the row
  `s_s[r, b, ·]` through both layers.  The two sides differ only in how the indices are laid out (a flattened row
  `r · 128 + b` against the pair `(r, b)`; the weights `W2[h, 0]` against the row entry `[0, h]`) and in how the two
  sums are spelt; no distributivity or cancellation is used, so the finiteness of the inputs is never needed.

  * `MlpSpec`   — the function, over the extended reals;
  * `MlpBody`   — the kernel body's stored value at an index is a row through both layers;
  * `MlpBlocks` — the 50 blocks written back tile the column: the region leaves the flat column;
  * `MlpLayout` — the flattening before and the reshape and transpose after turn the flat column into the result;
  * `MlpRun`    — the kernel program's run, with its result named;
  * `MlpRef`    — the reference's composed operations are the same function.

  The three frames are the generated ones (the reference's is its generated run with the result dropped), and
  the idealized kernel is the kernel's own text read over the extended reals (no rewrite was applied), so the
  fourth conjunct is trivial.
-/
import proofs.«107884_j30073361006607_2_alg».proof.Defs
import proofs.«107884_j30073361006607_2_alg».proof.Proof.Gen.Kernel
import proofs.«107884_j30073361006607_2_alg».proof.Proof.Gen.Kernel.Skeleton
import proofs.«107884_j30073361006607_2_alg».proof.Proof.Gen.Kernel.Launch
import proofs.«107884_j30073361006607_2_alg».proof.Proof.Gen.Kernel.Points
import proofs.«107884_j30073361006607_2_alg».proof.Proof.Gen.Kernel.Frame
import proofs.«107884_j30073361006607_2_alg».proof.Proof.Gen.KernelIdeal
import proofs.«107884_j30073361006607_2_alg».proof.Proof.Gen.KernelIdeal.Skeleton
import proofs.«107884_j30073361006607_2_alg».proof.Proof.Gen.KernelIdeal.Launch
import proofs.«107884_j30073361006607_2_alg».proof.Proof.Gen.KernelIdeal.Points
import proofs.«107884_j30073361006607_2_alg».proof.Proof.Gen.KernelIdeal.Frame
import proofs.«107884_j30073361006607_2_alg».proof.Proof.Gen.ReferenceIdeal
import proofs.«107884_j30073361006607_2_alg».proof.Proof.Gen.Pre_finite_inputs
import proofs.«107884_j30073361006607_2_alg».proof.Proof.Gen.ReferenceIdeal.Run
import proofs.«107884_j30073361006607_2_alg».proof.Proof.Gen.ReferenceIdeal.Read
import proofs.«107884_j30073361006607_2_alg».proof.Proof.MlpSpec
import proofs.«107884_j30073361006607_2_alg».proof.Proof.MlpRun
import proofs.«107884_j30073361006607_2_alg».proof.Proof.MlpRef
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the five arguments both programs end with the result array at the same function of
    them: the kernel by its run (`MlpRun.run`), the reference by its generated run, whose term is that function
    (`MlpRef.ref_eq`). -/
theorem algebraic : Cert.algebraic_KernelIdeal_ReferenceIdeal := by
  intro m ρ m' ρ' _ hagree
  refine ⟨fun c => Cert.MlpSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.MlpRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans (Cert.ReferenceIdeal.MlpRef.ref_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
